-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩

abbrev nBuf : Space → Nat
  | .hbm => 76
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x64, .f32⟩
  | .hbm, ⟨39, _⟩ => ⟨S50000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S1x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  reducesTo_S800000x64_S800000_d1 : S800000x64.ReducesTo [1] S800000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S800000x64_S800000_d1 : S800000x64.ReducesTo [1] S800000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result named.

  @main is five segments — host operations, the first layer's grid, host operations, the second layer's grid, host
  operations — and the generated frame certificate carries each core's buffers through them: at the return every buffer
  the core holds is at the last boundary's contents `W5`. Read at the result buffer this names the value the kernel
  returns; read at an argument it is the argument as launched.
-/
import proofs.«125121_j18047452577826_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer a core holds at the last
    boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result buffer named and the arguments as launched. -/
theorem run_result : θ_run defs (onTc (τ := τ) (main (F := F))) ⟨m, fun _ => 0, ρ⟩ (fun r => ∀ c : Dev nD,
      r.2.mem ((c.tc : Thread nD τ).loc main_v52) = W5 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v52 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)
    (run_held m ρ)

end Cert.KernelIdeal.Run

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.KernelPoint.lean ====
/-
  One grid point of the two graph-convolution layers, read at an output index.

  At a point the body holds a block of 5000 rows: the neighbour sums `s` (5000 × K), the column `v` of reciprocal
  degrees (5000 × 1), the node features `x` (5000 × K), the two weight matrices (K × 64) and the bias row (1 × 64).
  It stores, at row `p` and column `q`,
      (∑ₖ (s p k · v p) · Wl k q) + (∑ₖ x p k · Wr k q) + b q,
  clamped below at zero in the first layer (K = 128) and as it is in the second (K = 64). On the extended reals
  a change of float format is the identity and a matrix product into a zero accumulator is the plain sum, so the
  stored value is exactly this expression.
-/
import proofs.«125121_j18047452577826_2_alg».proof.Proof.Gen.KernelIdeal.Skeleton
import proofs.«125121_j18047452577826_2_alg».proof.Proof.LibRowForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx
open scoped BigOperators

/-! ## The two matrix products' operand indices -/

/-- The first layer's product: 5000 × 128 times 128 × 64. -/
abbrev dA := dot_S5000x128_S128x64_S5000x64_1_0_0_1_n_n
/-- The second layer's product: 5000 × 64 times 64 × 64. -/
abbrev dB := dot_S5000x64_S64x64_S5000x64_1_0_0_1_n_n

theorem dA_lhs0 (i : S5000x64.Idx) (k : dA.contr.Idx) : (dA.lhsIdx i k 0).val = (i 0).val := by
  unfold DotDims.lhsIdx
  rw [dif_neg (show ¬(0 : Fin S5000x128.rank) ∈ dA.lhsBatch by decide), dif_pos (show (0 : Fin S5000x128.rank) ∈ dA.lhsNonContracting by decide)]
  rfl
theorem dA_lhs1 (i : S5000x64.Idx) (k : dA.contr.Idx) : (dA.lhsIdx i k 1).val = (k ⟨0, by decide⟩).val :=
  dA.lhsIdx_val_of_single rfl i k
theorem dA_rhs0 (i : S5000x64.Idx) (k : dA.contr.Idx) : (dA.rhsIdx i k 0).val = (k ⟨0, by decide⟩).val :=
  dA.rhsIdx_val_of_single rfl i k
theorem dA_rhs1 (i : S5000x64.Idx) (k : dA.contr.Idx) : (dA.rhsIdx i k 1).val = (i 1).val := by
  unfold DotDims.rhsIdx
  rw [dif_neg (show ¬(1 : Fin S128x64.rank) ∈ dA.rhsBatch by decide), dif_pos (show (1 : Fin S128x64.rank) ∈ dA.rhsNonContracting by decide)]
  rfl

theorem dB_lhs0 (i : S5000x64.Idx) (k : dB.contr.Idx) : (dB.lhsIdx i k 0).val = (i 0).val := by
  unfold DotDims.lhsIdx
  rw [dif_neg (show ¬(0 : Fin S5000x64.rank) ∈ dB.lhsBatch by decide), dif_pos (show (0 : Fin S5000x64.rank) ∈ dB.lhsNonContracting by decide)]
  rfl
theorem dB_lhs1 (i : S5000x64.Idx) (k : dB.contr.Idx) : (dB.lhsIdx i k 1).val = (k ⟨0, by decide⟩).val :=
  dB.lhsIdx_val_of_single rfl i k
theorem dB_rhs0 (i : S5000x64.Idx) (k : dB.contr.Idx) : (dB.rhsIdx i k 0).val = (k ⟨0, by decide⟩).val :=
  dB.rhsIdx_val_of_single rfl i k
theorem dB_rhs1 (i : S5000x64.Idx) (k : dB.contr.Idx) : (dB.rhsIdx i k 1).val = (i 1).val := by
  unfold DotDims.rhsIdx
  rw [dif_neg (show ¬(1 : Fin S64x64.rank) ∈ dB.rhsBatch by decide), dif_pos (show (1 : Fin S64x64.rank) ∈ dB.rhsNonContracting by decide)]
  rfl

/-- A 5000 × 128 by 128 × 64 product into the zero accumulator, at row `p` and column `q`: the sum over the 128
    contracted positions of the products. -/
theorem matmulA_apply (l : FVec Ideal S5000x128 .bf16) (r : FVec Ideal S128x64 .bf16) (p : Fin 5000) (q : Fin 64) :
    FloatOps.matmul dA none l r (constant (F := Ideal) S5000x64 .f32 0x00000000#32) (ix2 p q)
      = ∑ k : Fin 128, l (ix2 p k) * r (ix2 k q) := by
  rw [Ideal.matmul_constant_zero_apply, ← Equiv.sum_comp (contrEquiv1 dA 128 rfl rfl).symm]
  refine Finset.sum_congr rfl fun k _ => ?_
  have hk := contrEquiv1_symm_val dA 128 rfl rfl k
  have el : dA.lhsIdx (ix2 p q) ((contrEquiv1 dA 128 rfl rfl).symm k) = ix2 p k := funext fun a => Fin.ext (by
    match a with
    | ⟨0, _⟩ => exact dA_lhs0 _ _
    | ⟨1, _⟩ => exact (dA_lhs1 _ _).trans hk)
  have er : dA.rhsIdx (ix2 p q) ((contrEquiv1 dA 128 rfl rfl).symm k) = ix2 k q := funext fun a => Fin.ext (by
    match a with
    | ⟨0, _⟩ => exact (dA_rhs0 _ _).trans hk
    | ⟨1, _⟩ => exact dA_rhs1 _ _)
  rw [el, er]

/-- The same for 5000 × 64 by 64 × 64. -/
theorem matmulB_apply (l : FVec Ideal S5000x64 .bf16) (r : FVec Ideal S64x64 .bf16) (p : Fin 5000) (q : Fin 64) :
    FloatOps.matmul dB none l r (constant (F := Ideal) S5000x64 .f32 0x00000000#32) (ix2 p q)
      = ∑ k : Fin 64, l (ix2 p k) * r (ix2 k q) := by
  rw [Ideal.matmul_constant_zero_apply, ← Equiv.sum_comp (contrEquiv1 dB 64 rfl rfl).symm]
  refine Finset.sum_congr rfl fun k _ => ?_
  have hk := contrEquiv1_symm_val dB 64 rfl rfl k
  have el : dB.lhsIdx (ix2 p q) ((contrEquiv1 dB 64 rfl rfl).symm k) = ix2 p k := funext fun a => Fin.ext (by
    match a with
    | ⟨0, _⟩ => exact dB_lhs0 _ _
    | ⟨1, _⟩ => exact (dB_lhs1 _ _).trans hk)
  have er : dB.rhsIdx (ix2 p q) ((contrEquiv1 dB 64 rfl rfl).symm k) = ix2 k q := funext fun a => Fin.ext (by
    match a with
    | ⟨0, _⟩ => exact (dB_rhs0 _ _).trans hk
    | ⟨1, _⟩ => exact dB_rhs1 _ _)
  rw [el, er]

/-! ## What each body stores, at row `p` and column `q` of the block -/

/-- The first layer's stored value. -/
theorem layerA_apply (s : Vec Ideal S5000x128 .f32) (v : Vec Ideal S5000x1 .f32) (x : Vec Ideal S5000x128 .f32)
    (wl wr : Vec Ideal S128x64 .f32) (b : Vec Ideal S1x64 .f32) (p : Fin 5000) (q : Fin 64) :
    k0_pay1 (F := Ideal) s v x wl wr b (ix2 p q)
      = max ((∑ k : Fin 128, (s (ix2 p k) * v (ix2 p (0 : Fin 1))) * wl (ix2 k q))
              + (∑ k : Fin 128, x (ix2 p k) * wr (ix2 k q)) + b (ix2 (0 : Fin 1) q))
          (Ideal.ofBits .f32 0x00000000#32) := by
  unfold k0_pay1
  change max (_ + _ + _) _ = _
  refine congrArg₂ max (congrArg₂ (· + ·) (congrArg₂ (· + ·) ?_ ?_) ?_) rfl
  · refine (matmulA_apply _ _ p q).trans (Finset.sum_congr rfl fun k _ => ?_)
    change (shapeCast S5000x128 s shapeCasts_S5000x128_S5000x128 (ix2 p k)
      * broadcastTo S5000x128 (shapeCast S5000x1 v shapeCasts_S5000x1_S5000x1) broadcasts_S5000x1_S5000x128 (ix2 p k)) * wl (ix2 k q) = _
    rw [shapeCast_self, shapeCast_self, Cert.LibRowForms.broadcastTo_a1_ab_apply]
  · exact matmulA_apply _ _ p q
  · exact (broadcastTo_1b_ab_apply _ _ p q).trans (by rw [shapeCast_self])

/-- The second layer's stored value (no clamp). -/
theorem layerB_apply (s : Vec Ideal S5000x64 .f32) (v : Vec Ideal S5000x1 .f32) (x : Vec Ideal S5000x64 .f32)
    (wl wr : Vec Ideal S64x64 .f32) (b : Vec Ideal S1x64 .f32) (p : Fin 5000) (q : Fin 64) :
    k1_pay1 (F := Ideal) s v x wl wr b (ix2 p q)
      = (∑ k : Fin 64, (s (ix2 p k) * v (ix2 p (0 : Fin 1))) * wl (ix2 k q))
          + (∑ k : Fin 64, x (ix2 p k) * wr (ix2 k q)) + b (ix2 (0 : Fin 1) q) := by
  unfold k1_pay1
  change _ + _ + _ = _
  refine congrArg₂ (· + ·) (congrArg₂ (· + ·) ?_ ?_) ?_
  · refine (matmulB_apply _ _ p q).trans (Finset.sum_congr rfl fun k _ => ?_)
    change (shapeCast S5000x64 s shapeCasts_S5000x64_S5000x64 (ix2 p k)
      * broadcastTo S5000x64 (shapeCast S5000x1 v shapeCasts_S5000x1_S5000x1) broadcasts_S5000x1_S5000x64 (ix2 p k)) * wl (ix2 k q) = _
    rw [shapeCast_self, shapeCast_self, Cert.LibRowForms.broadcastTo_a1_ab_apply]
  · refine (matmulB_apply _ _ p q).trans (Finset.sum_congr rfl fun k _ => ?_)
    change shapeCast S5000x64 x shapeCasts_S5000x64_S5000x64 (ix2 p k) * wr (ix2 k q) = _
    rw [shapeCast_self]
  · exact (broadcastTo_1b_ab_apply _ _ p q).trans (by rw [shapeCast_self])

end Cert.KernelIdeal.Point

end
-- ==== Proof.LibRecip.lean ====
/-
  Multiplying by a reciprocal is dividing, on the extended reals.

  For extended reals `s` and `c` with `c ≠ 0` the quotient `s / c` is by definition `s · c⁻¹` (with `(±∞)⁻¹ = 0`), and the
  reciprocal `1 / c` is `1 · c⁻¹ = c⁻¹`; so `s · (1 / c) = s / c` at every extended real `s`, the infinities included.
  No finiteness is needed, only that the divisor is not zero — which holds of any maximum with one.
-/
import Idealize.ShloMosaic.PureOps.Ideal
import Idealize.ShloMosaic.PureOps.IdealRules

namespace Cert.Lib.Recip

open Idealize.ShloMosaic

/-- The single-precision pattern of 1.0 denotes the real number one. -/
theorem one_f32 : Ideal.ofBits .f32 0x3F800000#32 = 1 := IdealRules.sign_bit.ideal_onePat .f32

/-- The reciprocal of a nonzero extended real is its inverse. -/
theorem div_one_left {c : EReal} (hc : c ≠ 0) : Ideal.div 1 c = c⁻¹ := by
  rw [Ideal.div, if_neg hc, one_mul]

/-- A product with the reciprocal of a nonzero divisor is the quotient by it, at every extended real. -/
theorem mul_div_one (s : EReal) {c : EReal} (hc : c ≠ 0) : s * Ideal.div 1 c = Ideal.div s c := by
  rw [div_one_left hc, Ideal.div, if_neg hc]

/-- A maximum with one is at least one, hence not zero. -/
theorem max_one_ne_zero (x : EReal) : max x 1 ≠ 0 :=
  (lt_of_lt_of_le zero_lt_one (le_max_right x 1)).ne'

end Cert.Lib.Recip
-- ==== Proof.LayerSpec.lean ====
/-
  The two graph-convolution layers as functions of whole arrays, in two arrangements, and the law joining them.

  Over 50000 nodes, with `s` the per-node sum of the neighbours' features, `x` the node's own features, `Wl`, `Wr` the
  two weight matrices and `b` the bias, a layer's entry at node `p` and output column `q` is
      (∑ₖ mean p k · Wl k q) + (∑ₖ x p k · Wr k q) + b q ,
  where `mean p k` is the neighbour sum scaled by the node's degree `c p`. One arrangement multiplies by a stored
  column of reciprocals `v p = 1 / c p` and adds the bias last (reading it from a one-row matrix); the other divides
  by `c p` and adds the bias between the two products (reading it from a vector). With `c p ≠ 0` they agree at every
  extended real: `s · (1 / c) = s / c` (Cert.Lib.Recip) and addition is commutative and associative.
  The first layer (128 input features) is clamped below at zero; the second (64) is not.
-/
import proofs.«125121_j18047452577826_2_alg».proof.Proof.LibRecip
import Idealize.ShloMosaic.PureOps.Ideal
import Idealize.ShloMosaic.Lib.ValueIdx

noncomputable section

namespace Cert.Layer

open Idealize.ShloMosaic Idealize.ShloMosaic.ValueIdx
open scoped BigOperators

/-- The zero the first layer clamps at, as the program spells it. -/
abbrev zero32 : EReal := Ideal.ofBits .f32 0x00000000#32

/-! ## The arrangement with a reciprocal column and a bias row -/

def recipEntryA (s : (⟨2, ![50000, 128]⟩ : Shape).Idx → EReal) (v : (⟨2, ![50000, 1]⟩ : Shape).Idx → EReal)
    (x : (⟨2, ![50000, 128]⟩ : Shape).Idx → EReal) (wl wr : (⟨2, ![128, 64]⟩ : Shape).Idx → EReal)
    (b : (⟨2, ![1, 64]⟩ : Shape).Idx → EReal) (p : Fin 50000) (q : Fin 64) : EReal :=
  (∑ k : Fin 128, (s (ix2 p k) * v (ix2 p (0 : Fin 1))) * wl (ix2 k q)) + (∑ k : Fin 128, x (ix2 p k) * wr (ix2 k q))
    + b (ix2 (0 : Fin 1) q)

def recipEntryB (s : (⟨2, ![50000, 64]⟩ : Shape).Idx → EReal) (v : (⟨2, ![50000, 1]⟩ : Shape).Idx → EReal)
    (x : (⟨2, ![50000, 64]⟩ : Shape).Idx → EReal) (wl wr : (⟨2, ![64, 64]⟩ : Shape).Idx → EReal)
    (b : (⟨2, ![1, 64]⟩ : Shape).Idx → EReal) (p : Fin 50000) (q : Fin 64) : EReal :=
  (∑ k : Fin 64, (s (ix2 p k) * v (ix2 p (0 : Fin 1))) * wl (ix2 k q)) + (∑ k : Fin 64, x (ix2 p k) * wr (ix2 k q))
    + b (ix2 (0 : Fin 1) q)

/-- The first layer's whole output array in this arrangement. -/
def recipLayerA (s : (⟨2, ![50000, 128]⟩ : Shape).Idx → EReal) (v : (⟨2, ![50000, 1]⟩ : Shape).Idx → EReal)
    (x : (⟨2, ![50000, 128]⟩ : Shape).Idx → EReal) (wl wr : (⟨2, ![128, 64]⟩ : Shape).Idx → EReal)
    (b : (⟨2, ![1, 64]⟩ : Shape).Idx → EReal) : (⟨2, ![50000, 64]⟩ : Shape).Idx → EReal :=
  fun i => max (recipEntryA s v x wl wr b ⟨(i 0).val, (i 0).isLt⟩ ⟨(i 1).val, (i 1).isLt⟩) zero32

/-- The second layer's. -/
def recipLayerB (s : (⟨2, ![50000, 64]⟩ : Shape).Idx → EReal) (v : (⟨2, ![50000, 1]⟩ : Shape).Idx → EReal)
    (x : (⟨2, ![50000, 64]⟩ : Shape).Idx → EReal) (wl wr : (⟨2, ![64, 64]⟩ : Shape).Idx → EReal)
    (b : (⟨2, ![1, 64]⟩ : Shape).Idx → EReal) : (⟨2, ![50000, 64]⟩ : Shape).Idx → EReal :=
  fun i => recipEntryB s v x wl wr b ⟨(i 0).val, (i 0).isLt⟩ ⟨(i 1).val, (i 1).isLt⟩

/-! ## The arrangement with a quotient by the degree and a bias vector -/

def quotEntryA (s : (⟨2, ![50000, 128]⟩ : Shape).Idx → EReal) (c : (⟨1, ![50000]⟩ : Shape).Idx → EReal)
    (x : (⟨2, ![50000, 128]⟩ : Shape).Idx → EReal) (wl wr : (⟨2, ![128, 64]⟩ : Shape).Idx → EReal)
    (b : (⟨1, ![64]⟩ : Shape).Idx → EReal) (p : Fin 50000) (q : Fin 64) : EReal :=
  (∑ k : Fin 128, Ideal.div (s (ix2 p k)) (c (ix1 p)) * wl (ix2 k q)) + b (ix1 q) + (∑ k : Fin 128, x (ix2 p k) * wr (ix2 k q))

def quotEntryB (s : (⟨2, ![50000, 64]⟩ : Shape).Idx → EReal) (c : (⟨1, ![50000]⟩ : Shape).Idx → EReal)
    (x : (⟨2, ![50000, 64]⟩ : Shape).Idx → EReal) (wl wr : (⟨2, ![64, 64]⟩ : Shape).Idx → EReal)
    (b : (⟨1, ![64]⟩ : Shape).Idx → EReal) (p : Fin 50000) (q : Fin 64) : EReal :=
  (∑ k : Fin 64, Ideal.div (s (ix2 p k)) (c (ix1 p)) * wl (ix2 k q)) + b (ix1 q) + (∑ k : Fin 64, x (ix2 p k) * wr (ix2 k q))

def quotLayerA (s : (⟨2, ![50000, 128]⟩ : Shape).Idx → EReal) (c : (⟨1, ![50000]⟩ : Shape).Idx → EReal)
    (x : (⟨2, ![50000, 128]⟩ : Shape).Idx → EReal) (wl wr : (⟨2, ![128, 64]⟩ : Shape).Idx → EReal)
    (b : (⟨1, ![64]⟩ : Shape).Idx → EReal) : (⟨2, ![50000, 64]⟩ : Shape).Idx → EReal :=
  fun i => max (quotEntryA s c x wl wr b ⟨(i 0).val, (i 0).isLt⟩ ⟨(i 1).val, (i 1).isLt⟩) zero32

def quotLayerB (s : (⟨2, ![50000, 64]⟩ : Shape).Idx → EReal) (c : (⟨1, ![50000]⟩ : Shape).Idx → EReal)
    (x : (⟨2, ![50000, 64]⟩ : Shape).Idx → EReal) (wl wr : (⟨2, ![64, 64]⟩ : Shape).Idx → EReal)
    (b : (⟨1, ![64]⟩ : Shape).Idx → EReal) : (⟨2, ![50000, 64]⟩ : Shape).Idx → EReal :=
  fun i => quotEntryB s c x wl wr b ⟨(i 0).val, (i 0).isLt⟩ ⟨(i 1).val, (i 1).isLt⟩

/-! ## The law: the two arrangements are one function when the degree is not zero -/

theorem recipEntryA_eq_quot (s : (⟨2, ![50000, 128]⟩ : Shape).Idx → EReal) (v : (⟨2, ![50000, 1]⟩ : Shape).Idx → EReal)
    (c : (⟨1, ![50000]⟩ : Shape).Idx → EReal) (x : (⟨2, ![50000, 128]⟩ : Shape).Idx → EReal)
    (wl wr : (⟨2, ![128, 64]⟩ : Shape).Idx → EReal) (brow : (⟨2, ![1, 64]⟩ : Shape).Idx → EReal)
    (b : (⟨1, ![64]⟩ : Shape).Idx → EReal)
    (hv : ∀ p : Fin 50000, v (ix2 p (0 : Fin 1)) = Ideal.div 1 (c (ix1 p))) (hc : ∀ p : Fin 50000, c (ix1 p) ≠ 0)
    (hb : ∀ q : Fin 64, brow (ix2 (0 : Fin 1) q) = b (ix1 q)) (p : Fin 50000) (q : Fin 64) :
    recipEntryA s v x wl wr brow p q = quotEntryA s c x wl wr b p q := by
  unfold recipEntryA quotEntryA
  rw [hb q, hv p, add_right_comm]
  refine congrArg₂ (· + ·) (congrArg₂ (· + ·) (Finset.sum_congr rfl fun k _ => ?_) rfl) rfl
  rw [Cert.Lib.Recip.mul_div_one _ (hc p)]

theorem recipEntryB_eq_quot (s : (⟨2, ![50000, 64]⟩ : Shape).Idx → EReal) (v : (⟨2, ![50000, 1]⟩ : Shape).Idx → EReal)
    (c : (⟨1, ![50000]⟩ : Shape).Idx → EReal) (x : (⟨2, ![50000, 64]⟩ : Shape).Idx → EReal)
    (wl wr : (⟨2, ![64, 64]⟩ : Shape).Idx → EReal) (brow : (⟨2, ![1, 64]⟩ : Shape).Idx → EReal)
    (b : (⟨1, ![64]⟩ : Shape).Idx → EReal)
    (hv : ∀ p : Fin 50000, v (ix2 p (0 : Fin 1)) = Ideal.div 1 (c (ix1 p))) (hc : ∀ p : Fin 50000, c (ix1 p) ≠ 0)
    (hb : ∀ q : Fin 64, brow (ix2 (0 : Fin 1) q) = b (ix1 q)) (p : Fin 50000) (q : Fin 64) :
    recipEntryB s v x wl wr brow p q = quotEntryB s c x wl wr b p q := by
  unfold recipEntryB quotEntryB
  rw [hb q, hv p, add_right_comm]
  refine congrArg₂ (· + ·) (congrArg₂ (· + ·) (Finset.sum_congr rfl fun k _ => ?_) rfl) rfl
  rw [Cert.Lib.Recip.mul_div_one _ (hc p)]

theorem recipLayerA_eq_quot (s : (⟨2, ![50000, 128]⟩ : Shape).Idx → EReal) (v : (⟨2, ![50000, 1]⟩ : Shape).Idx → EReal)
    (c : (⟨1, ![50000]⟩ : Shape).Idx → EReal) (x : (⟨2, ![50000, 128]⟩ : Shape).Idx → EReal)
    (wl wr : (⟨2, ![128, 64]⟩ : Shape).Idx → EReal) (brow : (⟨2, ![1, 64]⟩ : Shape).Idx → EReal)
    (b : (⟨1, ![64]⟩ : Shape).Idx → EReal)
    (hv : ∀ p : Fin 50000, v (ix2 p (0 : Fin 1)) = Ideal.div 1 (c (ix1 p))) (hc : ∀ p : Fin 50000, c (ix1 p) ≠ 0)
    (hb : ∀ q : Fin 64, brow (ix2 (0 : Fin 1) q) = b (ix1 q)) :
    recipLayerA s v x wl wr brow = quotLayerA s c x wl wr b :=
  funext fun i => congrArg (max · zero32) (recipEntryA_eq_quot s v c x wl wr brow b hv hc hb _ _)

theorem recipLayerB_eq_quot (s : (⟨2, ![50000, 64]⟩ : Shape).Idx → EReal) (v : (⟨2, ![50000, 1]⟩ : Shape).Idx → EReal)
    (c : (⟨1, ![50000]⟩ : Shape).Idx → EReal) (x : (⟨2, ![50000, 64]⟩ : Shape).Idx → EReal)
    (wl wr : (⟨2, ![64, 64]⟩ : Shape).Idx → EReal) (brow : (⟨2, ![1, 64]⟩ : Shape).Idx → EReal)
    (b : (⟨1, ![64]⟩ : Shape).Idx → EReal)
    (hv : ∀ p : Fin 50000, v (ix2 p (0 : Fin 1)) = Ideal.div 1 (c (ix1 p))) (hc : ∀ p : Fin 50000, c (ix1 p) ≠ 0)
    (hb : ∀ q : Fin 64, brow (ix2 (0 : Fin 1) q) = b (ix1 q)) :
    recipLayerB s v x wl wr brow = quotLayerB s c x wl wr b :=
  funext fun i => recipEntryB_eq_quot s v c x wl wr brow b hv hc hb _ _

end Cert.Layer

end
-- ==== Proof.KernelBlocks.lean ====
/-
  From the blocks a grid point writes to the whole output array, for each of the two layers.

  Each layer runs over 10 grid points; point `t` stages rows 5000·t … 5000·t + 4999 of the neighbour sums, of the
  reciprocal-degree column and of the node features, and the whole weight matrices and bias row, and writes back rows
  5000·t … 5000·t + 4999 of the output. So what point `t` writes back is block `t` of ONE function of the arrays the
  region finds — the layer in the reciprocal-column arrangement (Cert.Layer) — and the ten blocks tile the
  50000 rows, so the output array ends holding that function.
-/
import proofs.«125121_j18047452577826_2_alg».proof.Proof.Gen.KernelIdeal.Frame
import proofs.«125121_j18047452577826_2_alg».proof.Proof.KernelPoint
import proofs.«125121_j18047452577826_2_alg».proof.Proof.LayerSpec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open scoped BigOperators

-- the arrays as a region finds them
variable (V : (c : Dev nD) → (b : Ref sig .tc) → Buf (Elt Ideal) ((c : Thread nD τ).loc b))

theorem offsets_zero : (![0, 0] : Fin 2 → Nat) = fun _ => 0 := funext fun a => by fin_cases a <;> rfl

/-! ## The first layer (region 0) -/

/-- The printed index maps over the ten points: a row-blocked window sits at block row `t`, a whole window at zero. -/
theorem indexA : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- Every block row is some point's. -/
theorem index_ontoA : ∀ r : Fin 10, ∃ t : Fin cfg0.N, win0_6.index t = ![r.val, 0] :=
  (by decide +kernel : ∀ r : Fin 10, ∃ t : Fin grid0.N, win0_6.index t = ![r.val, 0])

/-- Row `p` of point `t`'s block of the neighbour sums is row 5000·t + p of the array. -/
theorem sumsA_at (c : Dev nD) (t : Fin cfg0.N) (ht : t.val < 10) (p : Fin 5000) (k : Fin 128) :
    iblk0 V c 0 t (ix2 p k) = V c main_v22 (ix2 (⟨t.val * 5000 + p.val, by omega⟩ : Fin 50000) k) := by
  obtain ⟨e0, e1, -⟩ := indexA t
  show V c main_v22 (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Row `p` of point `t`'s block of the reciprocal-degree column is row 5000·t + p of the array. -/
theorem recipA_at (c : Dev nD) (t : Fin cfg0.N) (ht : t.val < 10) (p : Fin 5000) :
    iblk0 V c 1 t (ix2 p (0 : Fin 1)) = V c main_v12 (ix2 (⟨t.val * 5000 + p.val, by omega⟩ : Fin 50000) (0 : Fin 1)) := by
  obtain ⟨-, -, e0, e1, -⟩ := indexA t
  show V c main_v12 (((cfg0.win 1).blk t).view.emb (ix2 p (0 : Fin 1))) = _
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

/-- Row `p` of point `t`'s block of the node features is row 5000·t + p of the array. -/
theorem featsA_at (c : Dev nD) (t : Fin cfg0.N) (ht : t.val < 10) (p : Fin 5000) (k : Fin 128) :
    iblk0 V c 2 t (ix2 p k) = V c main_arg0 (ix2 (⟨t.val * 5000 + p.val, by omega⟩ : Fin 50000) k) := by
  obtain ⟨-, -, -, -, e0, e1, -⟩ := indexA t
  show V c main_arg0 (((cfg0.win 2).blk t).view.emb (ix2 p k)) = _
  refine congrArg _ (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega

/-- The two weight matrices and the bias row are staged whole at every point. -/
theorem wlA_at (c : Dev nD) (t : Fin cfg0.N) (k : Fin 128) (q : Fin 64) :
    iblk0 V c 3 t (ix2 k q) = V c main_arg2 (ix2 k q) := by
  obtain ⟨-, -, -, -, -, -, e0, e1, -⟩ := indexA t
  show V c main_arg2 (((cfg0.win 3).blk t).view.emb (ix2 k q)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 64 + 1 * q.val = q.val; rw [e1]; omega

theorem wrA_at (c : Dev nD) (t : Fin cfg0.N) (k : Fin 128) (q : Fin 64) :
    iblk0 V c 4 t (ix2 k q) = V c main_arg4 (ix2 k q) := by
  obtain ⟨-, -, -, -, -, -, -, -, e0, e1, -⟩ := indexA t
  show V c main_arg4 (((cfg0.win 4).blk t).view.emb (ix2 k q)) = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 64 + 1 * q.val = q.val; rw [e1]; omega

theorem biasA_at (c : Dev nD) (t : Fin cfg0.N) (q : Fin 64) :
    iblk0 V c 5 t (ix2 (0 : Fin 1) q) = V c main_v23 (ix2 (0 : Fin 1) q) := by
  obtain ⟨-, -, -, -, -, -, -, -, -, -, e0, e1, -⟩ := indexA t
  show V c main_v23 (((cfg0.win 5).blk t).view.emb (ix2 (0 : Fin 1) q)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 64 + 1 * q.val = q.val; rw [e1]; omega

/-- WHAT POINT `t` WRITES BACK is block `t` of the first layer, in the reciprocal-column arrangement, of the arrays the
    region finds. -/
theorem flushedA_eq (c : Dev nD) (t : Fin cfg0.N) :
    (dat0 V c).flushed 6 t = ((cfg0.win 6).blk t).view.read (Elt Ideal)
      (Cert.Layer.recipLayerA (V c main_v22) (V c main_v12) (V c main_arg0) (V c main_arg2) (V c main_arg4) (V c main_v23)) := by
  show (cfg0.win 6).cut (grid0.coords t) ((dat0 V c).after 6 t) = _
  rw [after0_6]
  unfold out0_6
  rw [View.canon_unit_zero offsets_zero]
  simp only [View.ld_unit_zero (S := S5000x128) offsets_zero, View.ld_unit_zero (S := S5000x1) offsets_zero,
    View.ld_unit_zero (S := S128x64) offsets_zero, View.ld_unit_zero (S := S1x64) offsets_zero]
  obtain ⟨-, -, -, -, -, -, -, -, -, -, -, -, e0, e1, ht⟩ := indexA t
  funext j
  obtain ⟨p, q, rfl⟩ : ∃ (p : Fin 5000) (q : Fin 64), j = ix2 p q := ⟨j 0, j 1, eq_ix2 (n0 := 5000) (n1 := 64) j⟩
  have hemb : ((cfg0.win 6).blk t).view.emb (ix2 p q) = ix2 (⟨t.val * 5000 + p.val, by omega⟩ : Fin 50000) q :=
    funext fun a => Fin.ext (by
      match a with
      | ⟨0, _⟩ => show win0_6.index t (0 : Fin 2) * 5000 + 1 * p.val = t.val * 5000 + p.val; rw [e0]; omega
      | ⟨1, _⟩ => show win0_6.index t (1 : Fin 2) * 64 + 1 * q.val = q.val; rw [e1]; omega)
  show k0_pay1 (F := Ideal) (iblk0 V c 0 t) (iblk0 V c 1 t) (iblk0 V c 2 t) (iblk0 V c 3 t) (iblk0 V c 4 t) (iblk0 V c 5 t) (ix2 p q)
    = Cert.Layer.recipLayerA (V c main_v22) (V c main_v12) (V c main_arg0) (V c main_arg2) (V c main_arg4) (V c main_v23)
        (((cfg0.win 6).blk t).view.emb (ix2 p q))
  rw [hemb]
  refine (Point.layerA_apply (iblk0 V c 0 t) (iblk0 V c 1 t) (iblk0 V c 2 t) (iblk0 V c 3 t) (iblk0 V c 4 t) (iblk0 V c 5 t) p q).trans ?_
  show _ = max (Cert.Layer.recipEntryA (V c main_v22) (V c main_v12) (V c main_arg0) (V c main_arg2) (V c main_arg4) (V c main_v23)
      (⟨t.val * 5000 + p.val, by omega⟩ : Fin 50000) q) Cert.Layer.zero32
  unfold Cert.Layer.recipEntryA
  refine congrArg₂ max (congrArg₂ (· + ·) (congrArg₂ (· + ·) (Finset.sum_congr rfl fun k _ => ?_) (Finset.sum_congr rfl fun k _ => ?_)) ?_) rfl
  · rw [sumsA_at V c t ht p k, recipA_at V c t ht p, wlA_at V c t k q]
  · rw [featsA_at V c t ht p k, wrA_at V c t k q]
  · exact biasA_at V c t q

/-- An index of the output array is in point `t`'s block iff each coordinate is in the block's range on its axis. -/
theorem mem_blkA (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24).slice (win0_6.rect t)).set ↔ _
  rw [View.set_slice_whole, Rect.mem_set_unit]
  exact Iff.rfl

/-- The ten blocks tile the 50000 rows: row `r` is in the block of point `r / 5000`. -/
theorem coverA (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := index_ontoA ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blkA]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE FIRST LAYER'S OUTPUT ARRAY after the region: the layer of the arrays the region finds. -/
theorem finalA (c : Dev nD) : (dat0 V c).arrAt 6 cfg0.N
    = Cert.Layer.recipLayerA (V c main_v22) (V c main_v12) (V c main_arg0) (V c main_arg2) (V c main_arg4) (V c main_v23) :=
  (dat0 V c).arrAt_eq_of_cover 6 _ (fun t _ => flushedA_eq V c t) coverA

/-! ## The second layer (region 1) -/

/-- The printed index maps over the ten points: a row-blocked window sits at block row `t`, a whole window at zero. -/
theorem indexB : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- Every block row is some point's. -/
theorem index_ontoB : ∀ r : Fin 10, ∃ t : Fin cfg1.N, win1_6.index t = ![r.val, 0] :=
  (by decide +kernel : ∀ r : Fin 10, ∃ t : Fin grid1.N, win1_6.index t = ![r.val, 0])

/-- Row `p` of point `t`'s block of the neighbour sums is row 5000·t + p of the array. -/
theorem sumsB_at (c : Dev nD) (t : Fin cfg1.N) (ht : t.val < 10) (p : Fin 5000) (k : Fin 64) :
    iblk1 V c 0 t (ix2 p k) = V c main_v34 (ix2 (⟨t.val * 5000 + p.val, by omega⟩ : Fin 50000) k) := by
  obtain ⟨e0, e1, -⟩ := indexB t
  show V c main_v34 (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- Row `p` of point `t`'s block of the reciprocal-degree column is row 5000·t + p of the array. -/
theorem recipB_at (c : Dev nD) (t : Fin cfg1.N) (ht : t.val < 10) (p : Fin 5000) :
    iblk1 V c 1 t (ix2 p (0 : Fin 1)) = V c main_v12 (ix2 (⟨t.val * 5000 + p.val, by omega⟩ : Fin 50000) (0 : Fin 1)) := by
  obtain ⟨-, -, e0, e1, -⟩ := indexB t
  show V c main_v12 (((cfg1.win 1).blk t).view.emb (ix2 p (0 : Fin 1))) = _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- Row `p` of point `t`'s block of the node features is row 5000·t + p of the array. -/
theorem featsB_at (c : Dev nD) (t : Fin cfg1.N) (ht : t.val < 10) (p : Fin 5000) (k : Fin 64) :
    iblk1 V c 2 t (ix2 p k) = V c main_v24 (ix2 (⟨t.val * 5000 + p.val, by omega⟩ : Fin 50000) k) := by
  obtain ⟨-, -, -, -, e0, e1, -⟩ := indexB t
  show V c main_v24 (((cfg1.win 2).blk t).view.emb (ix2 p k)) = _
  refine congrArg _ (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 64 + 1 * k.val = k.val; rw [e1]; omega

/-- The two weight matrices and the bias row are staged whole at every point. -/
theorem wlB_at (c : Dev nD) (t : Fin cfg1.N) (k : Fin 64) (q : Fin 64) :
    iblk1 V c 3 t (ix2 k q) = V c main_arg5 (ix2 k q) := by
  obtain ⟨-, -, -, -, -, -, e0, e1, -⟩ := indexB t
  show V c main_arg5 (((cfg1.win 3).blk t).view.emb (ix2 k q)) = _
  refine congrArg _ (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

theorem wrB_at (c : Dev nD) (t : Fin cfg1.N) (k : Fin 64) (q : Fin 64) :
    iblk1 V c 4 t (ix2 k q) = V c main_arg7 (ix2 k q) := by
  obtain ⟨-, -, -, -, -, -, -, -, e0, e1, -⟩ := indexB t
  show V c main_arg7 (((cfg1.win 4).blk t).view.emb (ix2 k q)) = _
  refine congrArg _ (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

theorem biasB_at (c : Dev nD) (t : Fin cfg1.N) (q : Fin 64) :
    iblk1 V c 5 t (ix2 (0 : Fin 1) q) = V c main_v35 (ix2 (0 : Fin 1) q) := by
  obtain ⟨-, -, -, -, -, -, -, -, -, -, e0, e1, -⟩ := indexB t
  show V c main_v35 (((cfg1.win 5).blk t).view.emb (ix2 (0 : Fin 1) q)) = _
  refine congrArg _ (funext fun a => Fin.ext ?_)
  match a with
  | ⟨0, _⟩ => show win1_5.index t (0 : Fin 2) * 1 + 1 * 0 = 0; rw [e0]
  | ⟨1, _⟩ => show win1_5.index t (1 : Fin 2) * 64 + 1 * q.val = q.val; rw [e1]; omega

/-- WHAT POINT `t` WRITES BACK is block `t` of the first layer, in the reciprocal-column arrangement, of the arrays the
    region finds. -/
theorem flushedB_eq (c : Dev nD) (t : Fin cfg1.N) :
    (dat1 V c).flushed 6 t = ((cfg1.win 6).blk t).view.read (Elt Ideal)
      (Cert.Layer.recipLayerB (V c main_v34) (V c main_v12) (V c main_v24) (V c main_arg5) (V c main_arg7) (V c main_v35)) := by
  show (cfg1.win 6).cut (grid1.coords t) ((dat1 V c).after 6 t) = _
  rw [after1_6]
  unfold out1_6
  rw [View.canon_unit_zero offsets_zero]
  simp only [View.ld_unit_zero (S := S5000x64) offsets_zero, View.ld_unit_zero (S := S5000x1) offsets_zero,
    View.ld_unit_zero (S := S64x64) offsets_zero, View.ld_unit_zero (S := S1x64) offsets_zero]
  obtain ⟨-, -, -, -, -, -, -, -, -, -, -, -, e0, e1, ht⟩ := indexB t
  funext j
  obtain ⟨p, q, rfl⟩ : ∃ (p : Fin 5000) (q : Fin 64), j = ix2 p q := ⟨j 0, j 1, eq_ix2 (n0 := 5000) (n1 := 64) j⟩
  have hemb : ((cfg1.win 6).blk t).view.emb (ix2 p q) = ix2 (⟨t.val * 5000 + p.val, by omega⟩ : Fin 50000) q :=
    funext fun a => Fin.ext (by
      match a with
      | ⟨0, _⟩ => show win1_6.index t (0 : Fin 2) * 5000 + 1 * p.val = t.val * 5000 + p.val; rw [e0]; omega
      | ⟨1, _⟩ => show win1_6.index t (1 : Fin 2) * 64 + 1 * q.val = q.val; rw [e1]; omega)
  show k1_pay1 (F := Ideal) (iblk1 V c 0 t) (iblk1 V c 1 t) (iblk1 V c 2 t) (iblk1 V c 3 t) (iblk1 V c 4 t) (iblk1 V c 5 t) (ix2 p q)
    = Cert.Layer.recipLayerB (V c main_v34) (V c main_v12) (V c main_v24) (V c main_arg5) (V c main_arg7) (V c main_v35)
        (((cfg1.win 6).blk t).view.emb (ix2 p q))
  rw [hemb]
  refine (Point.layerB_apply (iblk1 V c 0 t) (iblk1 V c 1 t) (iblk1 V c 2 t) (iblk1 V c 3 t) (iblk1 V c 4 t) (iblk1 V c 5 t) p q).trans ?_
  show _ = Cert.Layer.recipEntryB (V c main_v34) (V c main_v12) (V c main_v24) (V c main_arg5) (V c main_arg7) (V c main_v35)
      (⟨t.val * 5000 + p.val, by omega⟩ : Fin 50000) q
  unfold Cert.Layer.recipEntryB
  refine congrArg₂ (· + ·) (congrArg₂ (· + ·) (Finset.sum_congr rfl fun k _ => ?_) (Finset.sum_congr rfl fun k _ => ?_)) ?_
  · rw [sumsB_at V c t ht p k, recipB_at V c t ht p, wlB_at V c t k q]
  · rw [featsB_at V c t ht p k, wrB_at V c t k q]
  · exact biasB_at V c t q

/-- An index of the output array is in point `t`'s block iff each coordinate is in the block's range on its axis. -/
theorem mem_blkB (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v36).slice (win1_6.rect t)).set ↔ _
  rw [View.set_slice_whole, Rect.mem_set_unit]
  exact Iff.rfl

/-- The ten blocks tile the 50000 rows: row `r` is in the block of point `r / 5000`. -/
theorem coverB (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := index_ontoB ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blkB]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE SECOND LAYER'S OUTPUT ARRAY after the region: the layer of the arrays the region finds. -/
theorem finalB (c : Dev nD) : (dat1 V c).arrAt 6 cfg1.N
    = Cert.Layer.recipLayerB (V c main_v34) (V c main_v12) (V c main_v24) (V c main_arg5) (V c main_arg7) (V c main_v35) :=
  (dat1 V c).arrAt_eq_of_cover 6 _ (fun t _ => flushedB_eq V c t) coverB

end Cert.KernelIdeal.Blocks

end
-- ==== Proof.RefStages.lean ====
/-
  The reference's two layers, read at an index.

  The reference aggregates the neighbours' features (a gather and a scatter-add), divides each node's sum by its degree
  — the count of incoming edges, at least one —, and computes `mean · Wl + b + x · Wr`, clamped below at zero after the
  first layer. Read one operation at a time at an output index, each layer's stage is the layer of Cert.Layer in the
  quotient arrangement, over the stages that hold the neighbour sums and the degree; and the degree, a maximum with
  one, is never zero.
-/
import proofs.«125121_j18047452577826_2_alg».proof.Proof.Gen.ReferenceIdeal.Read
import proofs.«125121_j18047452577826_2_alg».proof.Proof.LayerSpec

noncomputable section

namespace Cert.ReferenceIdeal.RefValue

open Cert.ReferenceIdeal Cert.ReferenceIdeal.Read Idealize.ShloMosaic Idealize.ShloMosaic.ValueIdx
open scoped BigOperators

/-- The degree stage of the first layer, a maximum with one, is not zero at any node. -/
theorem degreeA_ne_zero (x1 : (⟨S2x800000, .i32⟩ : BufTy).Contents (Elt Ideal)) (p : Fin 50000) :
    val_main_v19 (F := Ideal) x1 (ix1 p) ≠ 0 := by
  rw [val_main_v19_apply, val_main_v18_apply]
  show max _ (Ideal.ofBits .f32 0x3F800000#32) ≠ 0
  rw [Cert.Lib.Recip.one_f32]
  exact Cert.Lib.Recip.max_one_ne_zero _

/-- The same for the second layer's degree stage. -/
theorem degreeB_ne_zero (x1 : (⟨S2x800000, .i32⟩ : BufTy).Contents (Elt Ideal)) (p : Fin 50000) :
    val_main_v45 (F := Ideal) x1 (ix1 p) ≠ 0 := by
  rw [val_main_v45_apply, val_main_v44_apply]
  show max _ (Ideal.ofBits .f32 0x3F800000#32) ≠ 0
  rw [Cert.Lib.Recip.one_f32]
  exact Cert.Lib.Recip.max_one_ne_zero _

/-- The first layer's stage is the layer, in the quotient arrangement, of the neighbour sums, the degree, the
    features, the two weight matrices and the bias. -/
theorem layerA_eq (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) :
    val_main_v29 (F := Ideal) x0 x1 x2 x3 x4
      = Cert.Layer.quotLayerA (val_main_v13 (F := Ideal) x0 x1) (val_main_v19 (F := Ideal) x1) x0 x2 x4 x3 := by
  funext i
  rw [val_main_v29_apply, val_main_v28_apply, val_main_v26_apply, val_main_v23_apply, val_main_v27_apply, val_main_v25_apply,
    val_main_v24_apply, val_main_call0_v0_apply, val_main_call0_cst_apply]
  change max (_ + _ + _) _ = max (Cert.Layer.quotEntryA _ _ _ _ _ _ ⟨(i 0).val, (i 0).isLt⟩ ⟨(i 1).val, (i 1).isLt⟩) _
  unfold Cert.Layer.quotEntryA
  refine congrArg₂ max (congrArg₂ (· + ·) (congrArg₂ (· + ·) (Finset.sum_congr rfl fun k _ => ?_) ?_)
    (Finset.sum_congr rfl fun k _ => ?_)) rfl
  · rw [val_main_v22_apply, val_main_v21_apply, val_main_v20_apply]
    have e1 : lidx_main_v23 i k = ix2 (⟨(i 0).val, (i 0).isLt⟩ : Fin 50000) k :=
      funext fun a => Fin.ext (by match a with | ⟨0, _⟩ => rfl | ⟨1, _⟩ => rfl)
    have e2 : ridx_main_v23 i k = ix2 k (⟨(i 1).val, (i 1).isLt⟩ : Fin 64) :=
      funext fun a => Fin.ext (by match a with | ⟨0, _⟩ => rfl | ⟨1, _⟩ => rfl)
    have e3 : idx_main_v20 (idx_main_v21 (lidx_main_v23 i k)) = ix1 (⟨(i 0).val, (i 0).isLt⟩ : Fin 50000) :=
      funext fun a => Fin.ext (by match a with | ⟨0, _⟩ => rfl)
    rw [e3, e1, e2]
    rfl
  · exact congrArg x3 (funext fun a => Fin.ext (by match a with | ⟨0, _⟩ => rfl))
  · have e1 : lidx_main_v27 i k = ix2 (⟨(i 0).val, (i 0).isLt⟩ : Fin 50000) k :=
      funext fun a => Fin.ext (by match a with | ⟨0, _⟩ => rfl | ⟨1, _⟩ => rfl)
    have e2 : ridx_main_v27 i k = ix2 k (⟨(i 1).val, (i 1).isLt⟩ : Fin 64) :=
      funext fun a => Fin.ext (by match a with | ⟨0, _⟩ => rfl | ⟨1, _⟩ => rfl)
    rw [e1, e2]

/-- The second layer's stage is the layer, in the quotient arrangement, of ITS neighbour sums (of the first layer's
    output), its degree stage, the first layer's output, and the second pair of weight matrices and bias. -/
theorem layerB_eq (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal)) :
    val_main_v54 (F := Ideal) x0 x1 x2 x3 x4 x5 x6 x7
      = Cert.Layer.quotLayerB (val_main_v39 (F := Ideal) x0 x1 x2 x3 x4) (val_main_v45 (F := Ideal) x1)
          (val_main_v29 (F := Ideal) x0 x1 x2 x3 x4) x5 x7 x6 := by
  funext i
  rw [val_main_v54_apply, val_main_v52_apply, val_main_v49_apply, val_main_v53_apply, val_main_v51_apply, val_main_v50_apply]
  change _ + _ + _ = Cert.Layer.quotEntryB _ _ _ _ _ _ ⟨(i 0).val, (i 0).isLt⟩ ⟨(i 1).val, (i 1).isLt⟩
  unfold Cert.Layer.quotEntryB
  refine congrArg₂ (· + ·) (congrArg₂ (· + ·) (Finset.sum_congr rfl fun k _ => ?_) ?_) (Finset.sum_congr rfl fun k _ => ?_)
  · rw [val_main_v48_apply, val_main_v47_apply, val_main_v46_apply]
    have e1 : lidx_main_v49 i k = ix2 (⟨(i 0).val, (i 0).isLt⟩ : Fin 50000) k :=
      funext fun a => Fin.ext (by match a with | ⟨0, _⟩ => rfl | ⟨1, _⟩ => rfl)
    have e2 : ridx_main_v49 i k = ix2 k (⟨(i 1).val, (i 1).isLt⟩ : Fin 64) :=
      funext fun a => Fin.ext (by match a with | ⟨0, _⟩ => rfl | ⟨1, _⟩ => rfl)
    have e3 : idx_main_v46 (idx_main_v47 (lidx_main_v49 i k)) = ix1 (⟨(i 0).val, (i 0).isLt⟩ : Fin 50000) :=
      funext fun a => Fin.ext (by match a with | ⟨0, _⟩ => rfl)
    rw [e3, e1, e2]
    rfl
  · exact congrArg x6 (funext fun a => Fin.ext (by match a with | ⟨0, _⟩ => rfl))
  · have e1 : lidx_main_v53 i k = ix2 (⟨(i 0).val, (i 0).isLt⟩ : Fin 50000) k :=
      funext fun a => Fin.ext (by match a with | ⟨0, _⟩ => rfl | ⟨1, _⟩ => rfl)
    have e2 : ridx_main_v53 i k = ix2 k (⟨(i 1).val, (i 1).isLt⟩ : Fin 64) :=
      funext fun a => Fin.ext (by match a with | ⟨0, _⟩ => rfl | ⟨1, _⟩ => rfl)
    rw [e1, e2]

end Cert.ReferenceIdeal.RefValue

end
-- ==== Proof.KernelHost.lean ====
/-
  The kernel's host stretches, read back in the reference's own stages.

  Between its two grids the idealized kernel runs the same host operations as the reference: the edge list split into
  sources and destinations, the degree count, the gather of source rows and their scatter-add at the destinations, and at
  the end the per-edge dot product. So every array a grid finds, and the result, is one of the reference's stages
  (the generated read-at-an-index module's `val_…`) of the kernel's own arguments — except the reciprocal-degree column
  and the bias rows, which are re-laid copies read at an index here, and the two grids' outputs, which are the layers.
-/
import proofs.«125121_j18047452577826_2_alg».proof.Proof.KernelBlocks
import proofs.«125121_j18047452577826_2_alg».proof.Proof.RefStages
import proofs.«125121_j18047452577826_2_alg».proof.Proof.LibRowForms
import Idealize.ShloMosaic.Lib.ValueLayout
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg) (c : Dev nD)

/-! ## The first boundary: what the first layer's grid finds -/

/-- The neighbour sums of the node features. -/
theorem sums0 : V1 m ρ c main_v22
    = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v22) = _
  after_results_simp
  rfl

/-- The host's quotient of two arrays, at an index, is the quotient of the entries. -/
theorem hostDivf_at {s : Shape} (a b : FVec Ideal s .f32) (i : s.Idx) : Host.divf a b i = Ideal.div (a i) (b i) := rfl

/-- The reciprocal-degree column: at node `p` it is one over the degree stage. -/
theorem recip0 (p : Fin 50000) : V1 m ρ c main_v12 (ix2 p (0 : Fin 1))
    = Ideal.div 1 (Cert.ReferenceIdeal.Read.val_main_v19 (F := Ideal) (m ((c.tc : Thread nD τ).loc main_arg1)) (ix1 p)) := by
  have e : V1 m ρ c main_v12 = shapeCast S50000x1 ((Host.divf (F := Ideal) (Cert.ReferenceIdeal.Read.val_main_v18 (F := Ideal))
      (Cert.ReferenceIdeal.Read.val_main_v19 (F := Ideal) (m ((c.tc : Thread nD τ).loc main_arg1)))) : FVec Ideal S50000 .f32) shapeCasts_S50000_S50000x1 := by
    show StableHlo.after hostOps0 (W0 m ρ c) (Proc.devRef .tc main_v12) = _
    after_results_simp
    rfl
  rw [e]
  refine (Cert.LibRowForms.shapeCast_a_a1_apply _ _ p (0 : Fin 1)).trans ?_
  have h1 : Cert.ReferenceIdeal.Read.val_main_v18 (F := Ideal) (ix1 p) = 1 := by
    rw [Cert.ReferenceIdeal.Read.val_main_v18_apply]
    exact Cert.Lib.Recip.one_f32
  rw [hostDivf_at, h1]

theorem W1_arg0 : W1 m ρ c (Proc.devRef .tc main_arg0) = (m ((c.tc : Thread nD τ).loc main_arg0)) := by
  show StableHlo.after hostOps0 (W0 m ρ c) (Proc.devRef .tc main_arg0) = _
  after_results_simp

theorem W1_arg2 : W1 m ρ c (Proc.devRef .tc main_arg2) = (m ((c.tc : Thread nD τ).loc main_arg2)) := by
  show StableHlo.after hostOps0 (W0 m ρ c) (Proc.devRef .tc main_arg2) = _
  after_results_simp

theorem W1_arg4 : W1 m ρ c (Proc.devRef .tc main_arg4) = (m ((c.tc : Thread nD τ).loc main_arg4)) := by
  show StableHlo.after hostOps0 (W0 m ρ c) (Proc.devRef .tc main_arg4) = _
  after_results_simp

theorem W1_arg5 : W1 m ρ c (Proc.devRef .tc main_arg5) = (m ((c.tc : Thread nD τ).loc main_arg5)) := by
  show StableHlo.after hostOps0 (W0 m ρ c) (Proc.devRef .tc main_arg5) = _
  after_results_simp

theorem W1_arg6 : W1 m ρ c (Proc.devRef .tc main_arg6) = (m ((c.tc : Thread nD τ).loc main_arg6)) := by
  show StableHlo.after hostOps0 (W0 m ρ c) (Proc.devRef .tc main_arg6) = _
  after_results_simp

theorem W1_arg7 : W1 m ρ c (Proc.devRef .tc main_arg7) = (m ((c.tc : Thread nD τ).loc main_arg7)) := by
  show StableHlo.after hostOps0 (W0 m ρ c) (Proc.devRef .tc main_arg7) = _
  after_results_simp

/-- The first bias as a one-row matrix. -/
theorem bias0 (q : Fin 64) : V1 m ρ c main_v23 (ix2 (0 : Fin 1) q) = (m ((c.tc : Thread nD τ).loc main_arg3)) (ix1 q) := by
  have e : V1 m ρ c main_v23 = shapeCast S1x64 (m ((c.tc : Thread nD τ).loc main_arg3)) shapeCasts_S64_S1x64 := by
    show StableHlo.after hostOps0 (W0 m ρ c) (Proc.devRef .tc main_v23) = _
    after_results_simp
    rfl
  rw [e]
  exact shapeCast_a_1a_apply _ _ (0 : Fin 1) q

/-- The edges' sources and destinations. -/
theorem W1_src : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl
theorem W1_dst : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl

/-- THE FIRST LAYER'S OUTPUT is the reference's first-layer stage of the kernel's arguments: the grid's whole-array
    function in the reciprocal-column arrangement is the quotient arrangement, the degree being nonzero. -/
theorem layerA_out : (dat0 (V1 m ρ) c).arrAt 6 cfg0.N = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Blocks.finalA (V1 m ρ) c, sums0 m ρ c]
  show Cert.Layer.recipLayerA _ (V1 m ρ c main_v12) (W1 m ρ c (Proc.devRef .tc main_arg0)) (W1 m ρ c (Proc.devRef .tc main_arg2))
    (W1 m ρ c (Proc.devRef .tc main_arg4)) (V1 m ρ c main_v23) = _
  rw [W1_arg0 m ρ c, W1_arg2 m ρ c, W1_arg4 m ρ c]
  exact (Cert.Layer.recipLayerA_eq_quot _ _ (Cert.ReferenceIdeal.Read.val_main_v19 (F := Ideal) (m ((c.tc : Thread nD τ).loc main_arg1))) _ _ _ _ (m ((c.tc : Thread nD τ).loc main_arg3))
    (recip0 m ρ c) (Cert.ReferenceIdeal.RefValue.degreeA_ne_zero (m ((c.tc : Thread nD τ).loc main_arg1))) (bias0 m ρ c)).trans (Cert.ReferenceIdeal.RefValue.layerA_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm

/-! ## The second boundary: after the first grid -/

theorem W2_h : W2 m ρ c (Proc.devRef .tc main_v24) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 6).trans (layerA_out m ρ c)
theorem W2_recip : W2 m ρ c (Proc.devRef .tc main_v12) = V1 m ρ c main_v12 :=
  (W2_arr m ρ c 1).trans (((dat0 (V1 m ρ) c).arrAt_in 1 rfl _).trans (A_eq0 (V1 m ρ) c 1))
theorem W2_src : W2 m ρ c (Proc.devRef .tc main_v1) = Cert.ReferenceIdeal.Read.val_main_v1 (F := Ideal) (m ((c.tc : Thread nD τ).loc main_arg1)) :=
  (W2_of_ne m ρ c main_v1 (by decide)).trans (W1_src m ρ c)
theorem W2_dst : W2 m ρ c (Proc.devRef .tc main_v3) = Cert.ReferenceIdeal.Read.val_main_v3 (F := Ideal) (m ((c.tc : Thread nD τ).loc main_arg1)) :=
  (W2_of_ne m ρ c main_v3 (by decide)).trans (W1_dst m ρ c)
theorem W2_arg5 : W2 m ρ c (Proc.devRef .tc main_arg5) = (m ((c.tc : Thread nD τ).loc main_arg5)) := (W2_of_ne m ρ c main_arg5 (by decide)).trans (W1_arg5 m ρ c)
theorem W2_arg6 : W2 m ρ c (Proc.devRef .tc main_arg6) = (m ((c.tc : Thread nD τ).loc main_arg6)) := (W2_of_ne m ρ c main_arg6 (by decide)).trans (W1_arg6 m ρ c)
theorem W2_arg7 : W2 m ρ c (Proc.devRef .tc main_arg7) = (m ((c.tc : Thread nD τ).loc main_arg7)) := (W2_of_ne m ρ c main_arg7 (by decide)).trans (W1_arg7 m ρ c)

/-! ## The third boundary: what the second layer's grid finds -/

/-- The neighbour sums of the first layer's output. -/
theorem sums1 : V3 m ρ c main_v34 = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v34) = _
  after_results_simp
  rw [W2_h m ρ c, W2_src m ρ c, W2_dst m ρ c]
  rfl
theorem V3_recip : V3 m ρ c main_v12 = V1 m ρ c main_v12 := by
  show StableHlo.after hostOps1 (W2 m ρ c) (Proc.devRef .tc main_v12) = _
  after_results_simp
  exact W2_recip m ρ c
/-- The same reciprocal column serves the second layer: the reference counts the degree again, to the same value. -/
theorem recip1 (p : Fin 50000) : V3 m ρ c main_v12 (ix2 p (0 : Fin 1))
    = Ideal.div 1 (Cert.ReferenceIdeal.Read.val_main_v45 (F := Ideal) (m ((c.tc : Thread nD τ).loc main_arg1)) (ix1 p)) := by
  rw [V3_recip m ρ c]
  exact recip0 m ρ c p
theorem V3_h : V3 m ρ c main_v24 = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v24) = _
  after_results_simp
  exact W2_h m ρ c
theorem V3_arg5 : V3 m ρ c main_arg5 = (m ((c.tc : Thread nD τ).loc main_arg5)) := by
  show StableHlo.after hostOps1 (W2 m ρ c) (Proc.devRef .tc main_arg5) = _
  after_results_simp
  exact W2_arg5 m ρ c
theorem V3_arg7 : V3 m ρ c main_arg7 = (m ((c.tc : Thread nD τ).loc main_arg7)) := by
  show StableHlo.after hostOps1 (W2 m ρ c) (Proc.devRef .tc main_arg7) = _
  after_results_simp
  exact W2_arg7 m ρ c
/-- The second bias as a one-row matrix. -/
theorem bias1 (q : Fin 64) : V3 m ρ c main_v35 (ix2 (0 : Fin 1) q) = (m ((c.tc : Thread nD τ).loc main_arg6)) (ix1 q) := by
  have e : V3 m ρ c main_v35 = shapeCast S1x64 (m ((c.tc : Thread nD τ).loc main_arg6)) shapeCasts_S64_S1x64 := by
    show StableHlo.after hostOps1 (W2 m ρ c) (Proc.devRef .tc main_v35) = _
    after_results_simp
    rw [W2_arg6 m ρ c]
    rfl
  rw [e]
  exact shapeCast_a_1a_apply _ _ (0 : Fin 1) q

/-- THE SECOND LAYER'S OUTPUT is the reference's second-layer stage of the kernel's arguments. -/
theorem layerB_out : (dat1 (V3 m ρ) c).arrAt 6 cfg1.N = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Blocks.finalB (V3 m ρ) c, sums1 m ρ c, V3_h m ρ c, V3_arg5 m ρ c, V3_arg7 m ρ c]
  exact (Cert.Layer.recipLayerB_eq_quot _ _ (Cert.ReferenceIdeal.Read.val_main_v45 (F := Ideal) (m ((c.tc : Thread nD τ).loc main_arg1))) _ _ _ _ (m ((c.tc : Thread nD τ).loc main_arg6))
    (recip1 m ρ c) (Cert.ReferenceIdeal.RefValue.degreeB_ne_zero (m ((c.tc : Thread nD τ).loc main_arg1))) (bias1 m ρ c)).trans (Cert.ReferenceIdeal.RefValue.layerB_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-! ## The fourth boundary and the result -/

theorem W4_z : W4 m ρ c (Proc.devRef .tc main_v36) = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 6).trans (layerB_out m ρ c)
theorem W3_src : W3 m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results_simp
  exact W2_src m ρ c
theorem W3_dst : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results_simp
  exact W2_dst m ρ c
theorem W4_src : W4 m ρ c (Proc.devRef .tc main_v1) = Cert.ReferenceIdeal.Read.val_main_v1 (F := Ideal) (m ((c.tc : Thread nD τ).loc main_arg1)) :=
  (W4_of_ne m ρ c main_v1 (by decide)).trans (W3_src m ρ c)
theorem W4_dst : W4 m ρ c (Proc.devRef .tc main_v3) = Cert.ReferenceIdeal.Read.val_main_v3 (F := Ideal) (m ((c.tc : Thread nD τ).loc main_arg1)) :=
  (W4_of_ne m ρ c main_v3 (by decide)).trans (W3_dst m ρ c)

/-- THE KERNEL'S RESULT is the reference's result stage of the kernel's own arguments: the per-edge dot products of the
    second layer's output rows. -/
theorem result : W5 m ρ c (Proc.devRef .tc main_v52) = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W4 m ρ c) (Proc.devRef .tc main_v52) = _
  after_results_simp
  rw [W4_z m ρ c, W4_src m ρ c, W4_dst m ρ c]
  rfl

end Cert.KernelIdeal.HostReads

end
-- ==== Proof.lean ====
/-
  A two-layer graph convolution with a dot-product edge score, as a tiled kernel and as plain array code: equal on
  the extended reals.

  Both programs take node features `x` (50000 × 128), an edge list (2 × 800000) and two layers' weights. Each layer
  gathers the source rows of its input along the edges, sums them at the destination nodes, divides by the node's
  degree (the number of incoming edges, at least one), and forms `mean · Wl + b + x · Wr`; the first layer is clamped
  below at zero. The result is, per edge, the dot product of the second layer's rows at the edge's two ends.

  The two programs differ in three places only. The kernel computes the degree once and stores its reciprocal as a
  column, multiplying the neighbour sums by it inside each grid, where the reference divides by the degree in each
  layer; it adds the bias after both matrix products, the reference between them; and it computes each layer in ten
  blocks of 5000 rows with its operands narrowed to sixteen bits for the matrix unit. On the extended reals the last
  is no difference at all (a change of format is the identity and a product accumulated from zero is the plain sum);
  the second is commutativity and associativity of addition; and the first is `s · (1 / c) = s / c`, which holds at
  every extended real `s` as soon as `c ≠ 0` — and the degree, a maximum with one, is never zero. No finiteness of
  the inputs is used.

  The proof: each grid's output array is one function of the arrays the grid finds (Proof/KernelBlocks.lean, over
  Proof/KernelPoint.lean); the arrays it finds, and the kernel's result, are the reference's own stages of the kernel's
  arguments (Proof/KernelHost.lean), the layers by the law of Proof/LayerSpec.lean and the reference's stages read at an
  index (Proof/RefStages.lean); the kernel's run names its result (Proof/KernelRun.lean), the reference's run is the
  generated one. The ideal pass rewrote nothing, so `preserves` has no conjunct.
-/
import proofs.«125121_j18047452577826_2_alg».proof.Defs
import proofs.«125121_j18047452577826_2_alg».proof.Proof.Gen.Kernel
import proofs.«125121_j18047452577826_2_alg».proof.Proof.Gen.Kernel.Skeleton
import proofs.«125121_j18047452577826_2_alg».proof.Proof.Gen.Kernel.Launch
import proofs.«125121_j18047452577826_2_alg».proof.Proof.Gen.Kernel.Points
import proofs.«125121_j18047452577826_2_alg».proof.Proof.Gen.Kernel.Frame
import proofs.«125121_j18047452577826_2_alg».proof.Proof.Gen.KernelIdeal
import proofs.«125121_j18047452577826_2_alg».proof.Proof.Gen.KernelIdeal.Skeleton
import proofs.«125121_j18047452577826_2_alg».proof.Proof.Gen.KernelIdeal.Launch
import proofs.«125121_j18047452577826_2_alg».proof.Proof.Gen.KernelIdeal.Points
import proofs.«125121_j18047452577826_2_alg».proof.Proof.Gen.KernelIdeal.Frame
import proofs.«125121_j18047452577826_2_alg».proof.Proof.Gen.ReferenceIdeal
import proofs.«125121_j18047452577826_2_alg».proof.Proof.Gen.ReferenceIdeal.Run
import proofs.«125121_j18047452577826_2_alg».proof.Proof.Gen.ReferenceIdeal.Read
import proofs.«125121_j18047452577826_2_alg».proof.Proof.Gen.Pre_finite_inputs
import proofs.«125121_j18047452577826_2_alg».proof.Proof.KernelRun
import proofs.«125121_j18047452577826_2_alg».proof.Proof.KernelHost
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its generated run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the reference's result stage of the kernel's arguments: the kernel by its run and its host
    stretches read back, the reference by its generated run and the agreement of the two memories on the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostReads.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v70_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
